-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x2048x128 : Shape := ⟨4, ![4, 32, 2048, 128]⟩
abbrev S4x32x1x128 : Shape := ⟨4, ![4, 32, 1, 128]⟩
abbrev S_ : Shape := ⟨0, ![]⟩

class Facts : Prop where
  bcast_S_S4x32x2048x128 : S_.BroadcastsInDim S4x32x2048x128 (![] : Fin 0 → Fin S4x32x2048x128.rank)
  reducesTo_S4x32x2048x128_S_d0_1_2_3 : S4x32x2048x128.ReducesTo [0, 1, 2, 3] S_
  h_S_ : 0 < S_.numel
  bcast_S_S4x32x1x128 : S_.BroadcastsInDim S4x32x1x128 (![] : Fin 0 → Fin S4x32x1x128.rank)
  reducesTo_S4x32x1x128_S_d0_1_2_3 : S4x32x1x128.ReducesTo [0, 1, 2, 3] S_

variable [Facts]

def fn_part1 {F : FTy → Type} [FloatOps F] (main_arg4 : FVec F S4x32x1x128 .f32) (main_arg5 : FVec F S4x32x1x128 .f32) (main_v13 : IVec S_ 1) (main_v16 : IVec S4x32x1x128 1) : IVec S_ 1 :=
  let main_c_5 : IVec S_ 1 := constantI S_ 1 1#1
  let main_v17 : IVec S_ 1 := (fun x v => Host.reduce IntOp.andi x v reducesTo_S4x32x1x128_S_d0_1_2_3 h_S_) main_v16 main_c_5
  let main_v18 : IVec S_ 1 := andi main_v13 main_v17
  let main_v19 : FVec F S4x32x1x128 .f32 := Host.absf main_arg4
  let main_cst_6 : FVec F S_ .f32 := constant S_ .f32 0x7F800000#32
  let main_v20 : FVec F S4x32x1x128 .f32 := broadcastInDim S4x32x1x128 ![] bcast_S_S4x32x1x128 main_cst_6
  let main_v21 : IVec S4x32x1x128 1 := cmpf .olt main_v19 main_v20
  let main_c_7 : IVec S_ 1 := constantI S_ 1 1#1
  let main_v22 : IVec S_ 1 := (fun x v => Host.reduce IntOp.andi x v reducesTo_S4x32x1x128_S_d0_1_2_3 h_S_) main_v21 main_c_7
  let main_v23 : IVec S_ 1 := andi main_v18 main_v22
  let main_v24 : FVec F S4x32x1x128 .f32 := Host.absf main_arg5
  let main_cst_8 : FVec F S_ .f32 := constant S_ .f32 0x7F800000#32
  let main_v25 : FVec F S4x32x1x128 .f32 := broadcastInDim S4x32x1x128 ![] bcast_S_S4x32x1x128 main_cst_8
  let main_v26 : IVec S4x32x1x128 1 := cmpf .olt main_v24 main_v25
  let main_c_9 : IVec S_ 1 := constantI S_ 1 1#1
  let main_v27 : IVec S_ 1 := (fun x v => Host.reduce IntOp.andi x v reducesTo_S4x32x1x128_S_d0_1_2_3 h_S_) main_v26 main_c_9
  let main_v28 : IVec S_ 1 := andi main_v23 main_v27
  main_v28

def fn {F : FTy → Type} [FloatOps F] (main_arg0 : FVec F S4x32x2048x128 .f32) (main_arg1 : FVec F S4x32x2048x128 .f32) (main_arg2 : FVec F S4x32x2048x128 .f32) (main_arg3 : FVec F S4x32x1x128 .f32) (main_arg4 : FVec F S4x32x1x128 .f32) (main_arg5 : FVec F S4x32x1x128 .f32) : IVec S_ 1 :=
  let main_v0 : FVec F S4x32x2048x128 .f32 := Host.absf main_arg0
  let main_cst : FVec F S_ .f32 := constant S_ .f32 0x7F800000#32
  let main_v1 : FVec F S4x32x2048x128 .f32 := broadcastInDim S4x32x2048x128 ![] bcast_S_S4x32x2048x128 main_cst
  let main_v2 : IVec S4x32x2048x128 1 := cmpf .olt main_v0 main_v1
  let main_c : IVec S_ 1 := constantI S_ 1 1#1
  let main_v3 : IVec S_ 1 := (fun x v => Host.reduce IntOp.andi x v reducesTo_S4x32x2048x128_S_d0_1_2_3 h_S_) main_v2 main_c
  let main_v4 : FVec F S4x32x2048x128 .f32 := Host.absf main_arg1
  let main_cst_0 : FVec F S_ .f32 := constant S_ .f32 0x7F800000#32
  let main_v5 : FVec F S4x32x2048x128 .f32 := broadcastInDim S4x32x2048x128 ![] bcast_S_S4x32x2048x128 main_cst_0
  let main_v6 : IVec S4x32x2048x128 1 := cmpf .olt main_v4 main_v5
  let main_c_1 : IVec S_ 1 := constantI S_ 1 1#1
  let main_v7 : IVec S_ 1 := (fun x v => Host.reduce IntOp.andi x v reducesTo_S4x32x2048x128_S_d0_1_2_3 h_S_) main_v6 main_c_1
  let main_v8 : IVec S_ 1 := andi main_v3 main_v7
  let main_v9 : FVec F S4x32x2048x128 .f32 := Host.absf main_arg2
  let main_cst_2 : FVec F S_ .f32 := constant S_ .f32 0x7F800000#32
  let main_v10 : FVec F S4x32x2048x128 .f32 := broadcastInDim S4x32x2048x128 ![] bcast_S_S4x32x2048x128 main_cst_2
  let main_v11 : IVec S4x32x2048x128 1 := cmpf .olt main_v9 main_v10
  let main_c_3 : IVec S_ 1 := constantI S_ 1 1#1
  let main_v12 : IVec S_ 1 := (fun x v => Host.reduce IntOp.andi x v reducesTo_S4x32x2048x128_S_d0_1_2_3 h_S_) main_v11 main_c_3
  let main_v13 : IVec S_ 1 := andi main_v8 main_v12
  let main_v14 : FVec F S4x32x1x128 .f32 := Host.absf main_arg3
  let main_cst_4 : FVec F S_ .f32 := constant S_ .f32 0x7F800000#32
  let main_v15 : FVec F S4x32x1x128 .f32 := broadcastInDim S4x32x1x128 ![] bcast_S_S4x32x1x128 main_cst_4
  let main_v16 : IVec S4x32x1x128 1 := cmpf .olt main_v14 main_v15
  fn_part1 (F := F) main_arg4 main_arg5 main_v13 main_v16
-- ==== Kernel.lean ====
abbrev S4x32x2048x128 : Shape := ⟨4, ![4, 32, 2048, 128]⟩
abbrev S4x32x1x128 : Shape := ⟨4, ![4, 32, 1, 128]⟩
abbrev S1x1x2048x128 : Shape := ⟨4, ![1, 1, 2048, 128]⟩
abbrev S1x1x1x128 : Shape := ⟨4, ![1, 1, 1, 128]⟩
abbrev S2048x128 : Shape := ⟨2, ![2048, 128]⟩
abbrev S1x128 : Shape := ⟨2, ![1, 128]⟩

abbrev nBuf : Space → Nat
  | .hbm => 9
  | .vmem => 18
  | .smem => 0
  | _ => 0

abbrev bufTy : (tb : Table) → Fin (tcTables nBuf tb) → BufTy
  | .hbm, ⟨0, _⟩ => ⟨S4x32x2048x128, .f32⟩
  | .hbm, ⟨1, _⟩ => ⟨S4x32x2048x128, .f32⟩
  | .hbm, ⟨2, _⟩ => ⟨S4x32x2048x128, .f32⟩
  | .hbm, ⟨3, _⟩ => ⟨S4x32x1x128, .f32⟩
  | .hbm, ⟨4, _⟩ => ⟨S4x32x1x128, .f32⟩
  | .hbm, ⟨5, _⟩ => ⟨S4x32x1x128, .f32⟩
  | .hbm, ⟨6, _⟩ => ⟨S4x32x2048x128, .f32⟩
  | .hbm, ⟨7, _⟩ => ⟨S4x32x2048x128, .f32⟩
  | .hbm, ⟨8, _⟩ => ⟨S4x32x2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x1x128, .f32⟩
  | .local _ .vmem, ⟨7, _⟩ => ⟨S1x1x1x128, .f32⟩
  | .local _ .vmem, ⟨8, _⟩ => ⟨S1x1x1x128, .f32⟩
  | .local _ .vmem, ⟨9, _⟩ => ⟨S1x1x1x128, .f32⟩
  | .local _ .vmem, ⟨10, _⟩ => ⟨S1x1x1x128, .f32⟩
  | .local _ .vmem, ⟨11, _⟩ => ⟨S1x1x1x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S1x1x2048x128, .f32⟩
  | .local _ .vmem, ⟨15, _⟩ => ⟨S1x1x2048x128, .f32⟩
  | .local _ .vmem, ⟨16, _⟩ => ⟨S1x1x2048x128, .f32⟩
  | .local _ .vmem, ⟨17, _⟩ => ⟨S1x1x2048x128, .f32⟩
  | _, _ => ⟨S4x32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  rotates_S2048x128_d0 : S2048x128.Rotates 0 none
  shapeCasts_S2048x128_S1x1x2048x128 : S2048x128.ShapeCasts S1x1x2048x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  inb_S1x1x2048x128_S1x1x1x128_0_0_2047_0 : ∀ a, (![0, 0, 2047, 0] : Fin 4 → Nat) a + S1x1x1x128.size a ≤ S1x1x2048x128.size a
  shapeCasts_S1x128_S1x1x1x128 : S1x128.ShapeCasts S1x1x1x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x128.size a ≤ S4x32x2048x128.size a
  hwx0_0 : ∀ i : grid0.Coords, EltTy.bits .f32 = 32 ∨ (Rect.block (s := S4x32x2048x128) S1x1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S4x32x2048x128.size a
  hwx0_1 : ∀ i : grid0.Coords, EltTy.bits .f32 = 32 ∨ (Rect.block (s := S4x32x2048x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x128.size a ≤ S4x32x2048x128.size a
  hwx0_2 : ∀ i : grid0.Coords, EltTy.bits .f32 = 32 ∨ (Rect.block (s := S4x32x2048x128) S1x1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x128.size a ≤ S4x32x1x128.size a
  hwx0_3 : ∀ i : grid0.Coords, EltTy.bits .f32 = 32 ∨ (Rect.block (s := S4x32x1x128) S1x1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x128.size a ≤ S4x32x1x128.size a
  hwx0_4 : ∀ i : grid0.Coords, EltTy.bits .f32 = 32 ∨ (Rect.block (s := S4x32x1x128) S1x1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x128.size a ≤ S4x32x1x128.size a
  hwx0_5 : ∀ i : grid0.Coords, EltTy.bits .f32 = 32 ∨ (Rect.block (s := S4x32x1x128) S1x1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048x128.size a ≤ S4x32x2048x128.size a
  hwx0_6 : ∀ i : grid0.Coords, EltTy.bits .f32 = 32 ∨ (Rect.block (s := S4x32x2048x128) S1x1x2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048x128.size a ≤ S4x32x2048x128.size a
  hwx0_7 : ∀ i : grid0.Coords, EltTy.bits .f32 = 32 ∨ (Rect.block (s := S4x32x2048x128) S1x1x2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048x128.size a ≤ S4x32x2048x128.size a
  hwx0_8 : ∀ i : grid0.Coords, EltTy.bits .f32 = 32 ∨ (Rect.block (s := S4x32x2048x128) S1x1x2048x128.size (cc0_transform_8 i) (hinb0_8 i)).WholeWords (EltTy.packing .f32)

variable [Facts₀]

abbrev win0_0 : Pipeline.Window sig grid0 :=
  Pipeline.Window.ofSpec (Memref.whole main_arg0) S1x1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1x2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1x2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x1x2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x32x2048x128 : Shape := ⟨4, ![4, 32, 2048, 128]⟩
abbrev S4x32x1x128 : Shape := ⟨4, ![4, 32, 1, 128]⟩
abbrev S4x32x2047x128 : Shape := ⟨4, ![4, 32, 2047, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x32x2048x128, .f32⟩
  | .hbm, ⟨1, _⟩ => ⟨S4x32x2048x128, .f32⟩
  | .hbm, ⟨2, _⟩ => ⟨S4x32x2048x128, .f32⟩
  | .hbm, ⟨3, _⟩ => ⟨S4x32x1x128, .f32⟩
  | .hbm, ⟨4, _⟩ => ⟨S4x32x1x128, .f32⟩
  | .hbm, ⟨5, _⟩ => ⟨S4x32x1x128, .f32⟩
  | .hbm, ⟨6, _⟩ => ⟨S4x32x2047x128, .f32⟩
  | .hbm, ⟨7, _⟩ => ⟨S4x32x2048x128, .f32⟩
  | .hbm, ⟨8, _⟩ => ⟨S4x32x2047x128, .f32⟩
  | .hbm, ⟨9, _⟩ => ⟨S4x32x2048x128, .f32⟩
  | .hbm, ⟨10, _⟩ => ⟨S4x32x2047x128, .f32⟩
  | .hbm, ⟨11, _⟩ => ⟨S4x32x2048x128, .f32⟩
  | _, _ => ⟨S4x32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  slices_S4x32x2048x128_S4x32x2047x128_0_0_1_0 : S4x32x2048x128.Slices ![0, 0, 1, 0] S4x32x2047x128
  concatenates_S4x32x2047x128_S4x32x1x128_S4x32x2048x128_d2 : Shape.Concatenates [S4x32x2047x128, S4x32x1x128] S4x32x2048x128 2

variable [Facts₀]

class Facts : Prop extends Facts₀ where

variable [Facts]
-- ==== Proof.ShiftSpec.lean ====
/-
  The specification of a one-step cache shift, stated on plain index functions and on no program.

  A cache is an array over [4, 32, 2048, 128] (batch, head, position, feature) and a new token an
  array over [4, 32, 1, 128]. The shifted cache forgets position 0, moves every later position one
  step towards the front, and puts the token in the last position:

      shifted cache tok (b, h, s, d) = cache (b, h, s + 1, d)   for s + 1 < 2048,
      shifted cache tok (b, h, 2047, d) = tok (b, h, 0, d).

  Nothing here is arithmetic on the entries: the entries are moved, never combined, so the
  function is stated for any type of entries.
-/
import Idealize.ShloMosaic.Lib.ValueIdx

namespace Cert.Shift

open Idealize.ShloMosaic Idealize.ShloMosaic.ValueIdx

/-- The shape of a cache: batch 4, heads 32, positions 2048, features 128. -/
abbrev SCache : Shape := ⟨4, ![4, 32, 2048, 128]⟩

/-- The shape of a new token: one position. -/
abbrev STok : Shape := ⟨4, ![4, 32, 1, 128]⟩

/-- The cache shifted by one position with the token appended: position `s` holds what position
    `s + 1` held, and the last position holds the token. -/
def shifted {α : Type} (cache : SCache.Idx → α) (tok : STok.Idx → α) : SCache.Idx → α :=
  fun j =>
    if h : (j 2).val + 1 < 2048 then cache (ix4 (j 0) (j 1) (⟨(j 2).val + 1, h⟩ : Fin 2048) (j 3))
    else tok (ix4 (j 0) (j 1) (0 : Fin 1) (j 3))

/-- Before the last position the shifted cache reads the next position of the old cache. -/
theorem shifted_of_lt {α : Type} (cache : SCache.Idx → α) (tok : STok.Idx → α) (j : SCache.Idx)
    (h : (j 2).val + 1 < 2048) :
    shifted cache tok j = cache (ix4 (j 0) (j 1) (⟨(j 2).val + 1, h⟩ : Fin 2048) (j 3)) := by
  unfold shifted; rw [dif_pos h]

/-- At the last position the shifted cache reads the token. -/
theorem shifted_of_last {α : Type} (cache : SCache.Idx → α) (tok : STok.Idx → α) (j : SCache.Idx)
    (h : ¬ (j 2).val + 1 < 2048) :
    shifted cache tok j = tok (ix4 (j 0) (j 1) (0 : Fin 1) (j 3)) := by
  unfold shifted; rw [dif_neg h]

end Cert.Shift
-- ==== Proof.ShiftRef.lean ====
/-
  The reference's result is the shifted cache.

  The reference cuts positions 1 … 2047 out of the cache (a slice along the position axis) and joins
  the new token behind them (a concatenation along the same axis). Read at an index (b, h, s, d):
  for s < 2047 the index falls in the first piece, whose entry s is the cache's entry s + 1; for
  s = 2047 it falls in the second piece at its only position, the token. That is the specification
  `Cert.Shift.shifted`, entry by entry. Entries are only moved, so this holds for any entry type.
-/
import Idealize.ShloMosaic.Lib.Pipeline.Value
import proofs.«157925_j86268713108247_1_alg».proof.Proof.ShiftSpec

namespace Cert.Shift

open Idealize.ShloMosaic Idealize.ShloMosaic.ValueIdx

/-- The shape of the cache without its first position. -/
abbrev STail : Shape := ⟨4, ![4, 32, 2047, 128]⟩

/-- Slicing off position 0 and appending the token along the position axis gives the shifted cache. -/
theorem slice_concat_eq_shifted {α : Type} (x : SCache.Idx → α) (tok : STok.Idx → α)
    (hs : SCache.Slices ![0, 0, 1, 0] STail) (hc : Shape.Concatenates [STail, STok] SCache 2) :
    concatenate SCache 2 [⟨STail, extractStridedSlice STail ![0, 0, 1, 0] x hs⟩, ⟨STok, tok⟩] hc
      = shifted x tok := by
  funext j
  have hj2 : (j 2).val < 2048 := (j 2).isLt
  by_cases h : (j 2).val + 1 < 2048
  · -- the index lies in the sliced piece: its entry s is the cache's entry s + 1
    have hlt : (j 2).val < 2047 := by omega
    rw [shifted_of_lt x tok j h,
      concatenate_pair_apply_left (t := SCache) (s₁ := STail) (s₂ := STok) (2 : Fin 4)
        (extractStridedSlice STail ![0, 0, 1, 0] x hs) tok hc j rfl
        (ix4 (j 0) (j 1) (⟨(j 2).val, hlt⟩ : Fin 2047) (j 3))
        (fun b => match b with | ⟨0, _⟩ => rfl | ⟨1, _⟩ => rfl | ⟨2, _⟩ => rfl | ⟨3, _⟩ => rfl)]
    exact extractStridedSlice_apply ![0, 0, 1, 0] x hs _ _
      (fun a => match a with
        | ⟨0, _⟩ => by show (j 0).val = 0 + (j 0).val; omega
        | ⟨1, _⟩ => by show (j 1).val = 0 + (j 1).val; omega
        | ⟨2, _⟩ => by show (j 2).val + 1 = 1 + (j 2).val; omega
        | ⟨3, _⟩ => by show (j 3).val = 0 + (j 3).val; omega)
  · -- the index lies in the token: the last position
    have heq : (j 2).val = 2047 := by omega
    rw [shifted_of_last x tok j h]
    exact concatenate_pair_apply_right (t := SCache) (s₁ := STail) (s₂ := STok) (2 : Fin 4)
      (extractStridedSlice STail ![0, 0, 1, 0] x hs) tok hc j rfl rfl
      (ix4 (j 0) (j 1) (0 : Fin 1) (j 3))
      (fun b hb => match b, hb with
        | ⟨0, _⟩, _ => rfl | ⟨1, _⟩, _ => rfl | ⟨2, _⟩, hb => absurd rfl hb | ⟨3, _⟩, _ => rfl)
      (by show 0 + 2047 = (j 2).val; omega)

end Cert.Shift
-- ==== Proof.ShiftSlab.lean ====
/-
  One (batch, head) slab of the cache, shifted: the mathematics of a single grid point.

  A slab is an array over [1, 1, 2048, 128] (the two leading axes have one entry each), a token row an
  array over [1, 1, 1, 128]. The kernel's body does two things to each output slab:

    * it writes the whole slab with the input slab ROTATED by 2047 positions along the position
      axis, so that position s receives what position (s + 2048 − 2047) mod 2048 = (s + 1) mod 2048
      held: for s + 1 < 2048 that is position s + 1;
    * it then overwrites position 2047 with the token row.

  Read back, the later write wins where the two overlap (only at position 2047) and the earlier one
  shows everywhere else. So the slab ends as `slabShifted`: position s + 1 of the input slab at every
  s < 2047 and the token at s = 2047. Entries are moved, never combined: any entry type.
-/
import Idealize.ShloMosaic.Lib.Pipeline.Value
import Idealize.ShloMosaic.Lib.Pipeline.FrameBody
import Idealize.ShloMosaic.Lib.KernelVsHost
import proofs.«157925_j86268713108247_1_alg».proof.Proof.ShiftSpec

noncomputable section

namespace Cert.Shift

open Idealize.ShloMosaic Idealize.ShloMosaic.ValueIdx

/-- One (batch, head) slab: 2048 positions of 128 features under two unit axes. -/
abbrev SSlab : Shape := ⟨4, ![1, 1, 2048, 128]⟩
/-- The same slab as a plain matrix of positions by features. -/
abbrev SRows : Shape := ⟨2, ![2048, 128]⟩
/-- One token row under the slab's axes. -/
abbrev SRow : Shape := ⟨4, ![1, 1, 1, 128]⟩
/-- One token row as a one-row matrix. -/
abbrev SRowM : Shape := ⟨2, ![1, 128]⟩

/-- The slab shifted by one position with the token row appended. -/
def slabShifted {α : Type} (x : SSlab.Idx → α) (tok : SRow.Idx → α) : SSlab.Idx → α :=
  fun y =>
    if h : (y 2).val + 1 < 2048 then x (ix4 (y 0) (y 1) (⟨(y 2).val + 1, h⟩ : Fin 2048) (y 3))
    else tok (ix4 (y 0) (y 1) (0 : Fin 1) (y 3))

/-- The slab viewed as a matrix, rotated by 2047 along the positions and viewed as a slab again, reads
    at every position but the last the NEXT position of the slab: the rotation moves the entry at
    position p to position (p + 2047) mod 2048, so position s receives position (s + 1) mod 2048. -/
theorem rotated_apply_of_lt {α : Type} (x : SSlab.Idx → α) (h1 : SSlab.ShapeCasts SRows)
    (hr : SRows.Rotates 0 none) (h2 : SRows.ShapeCasts SSlab) (y : SSlab.Idx) (h : (y 2).val + 1 < 2048) :
    shapeCast SSlab (dynamicRotate 0 2047#32 none (shapeCast SRows x h1) hr) h2 y
      = x (ix4 (y 0) (y 1) (⟨(y 2).val + 1, h⟩ : Fin 2048) (y 3)) := by
  have hy0 : (y 0).val = 0 := by have h0 := (y 0).isLt; change (y 0).val < 1 at h0; omega
  have hy1 : (y 1).val = 0 := by have h0 := (y 1).isLt; change (y 1).val < 1 at h0; omega
  -- the slab's index (0, 0, s, d) and the matrix's index (s, d) have one row-major position
  rw [shapeCast_apply _ h2 y (ix2 (y 2) (y 3)) (by
    rw [Shape.rowMajor_val_two, Shape.rowMajor_val_four]
    show (y 2).val * 128 + (y 3).val = (((y 0).val * 1 + (y 1).val) * 2048 + (y 2).val) * 128 + (y 3).val
    omega)]
  -- the rotation reads position (s + 2048 − 2047) mod 2048 = s + 1
  rw [dynamicRotate_apply (0 : Fin 2) 2047#32 (shapeCast SRows x h1) hr (ix2 (y 2) (y 3))
    (ix2 (⟨(y 2).val + 1, h⟩ : Fin 2048) (y 3)) (fun b => match b with
      | ⟨0, _⟩ => by
          show (y 2).val + 1
            = if (0 : Fin 2) = 0 then ((y 2).val + 2048 - (2047#32 : BitVec 32).toNat % 2048) % 2048 else (y 2).val
          rw [if_pos rfl, show (2047#32 : BitVec 32).toNat = 2047 from rfl]; omega
      | ⟨1, _⟩ => by
          show (y 3).val
            = if (1 : Fin 2) = 0 then ((y 3).val + 128 - (2047#32 : BitVec 32).toNat % 128) % 128 else (y 3).val
          rw [if_neg (by decide)])]
  exact shapeCast_apply x h1 _ (ix4 (y 0) (y 1) (⟨(y 2).val + 1, h⟩ : Fin 2048) (y 3)) (by
    rw [Shape.rowMajor_val_four, Shape.rowMajor_val_two]
    show (((y 0).val * 1 + (y 1).val) * 2048 + ((y 2).val + 1)) * 128 + (y 3).val = ((y 2).val + 1) * 128 + (y 3).val
    omega)

/-- A token row viewed as a one-row matrix and viewed as a row under the slab's axes again is the row. -/
theorem row_there_and_back {α : Type} (v : SRow.Idx → α) (h1 : SRow.ShapeCasts SRowM) (h2 : SRowM.ShapeCasts SRow) :
    shapeCast SRow (shapeCast SRowM v h1) h2 = v :=
  shapeCast_shapeCast v h1 h2

/-- WHAT THE TWO STORES LEAVE. The whole slab written with `w`, then position 2047 overwritten with the
    row `r`: read back, every position before the last shows `w` and the last shows `r`. -/
theorem canon_row_over_slab {Val : EltTy → Type} [∀ e, Nonempty (Val e)] {e : EltTy}
    (inbRow : ∀ a, (![0, 0, 2047, 0] : Fin 4 → Nat) a + SRow.size a ≤ SSlab.size a)
    (inbAll : ∀ a, (![0, 0, 0, 0] : Fin 4 → Nat) a + SSlab.size a ≤ SSlab.size a)
    (r : SRow.Idx → Val e) (w : SSlab.Idx → Val e) (y : SSlab.Idx) :
    View.canon [(⟨Rect.unit ![0, 0, 2047, 0] SRow.size inbRow, r⟩ : View.Piece Val SSlab e),
        ⟨Rect.unit ![0, 0, 0, 0] SSlab.size inbAll, w⟩] y
      = if (y 2).val + 1 < 2048 then w y else r (ix4 (y 0) (y 1) (0 : Fin 1) (y 3)) := by
  have hz : (![0, 0, 0, 0] : Fin 4 → Nat) = fun _ => 0 := funext fun a => by fin_cases a <;> rfl
  by_cases h : (y 2).val + 1 < 2048
  · -- not under the row store: the earlier, whole-slab store shows
    rw [if_pos h, View.canon_cons_of_not_mem _ _ (by
        rw [Rect.mem_set_unit]; intro hm
        have h2 := (hm 2).1; change 2047 ≤ (y 2).val at h2; omega),
      View.canon_unit_zero hz]
  · -- under the row store, which is the later one
    rw [if_neg h]
    have hy2 : (y 2).val < 2048 := (y 2).isLt
    have hy : y = (Rect.unit (s := SSlab) ![0, 0, 2047, 0] SRow.size inbRow).emb (ix4 (y 0) (y 1) (0 : Fin 1) (y 3)) := by
      funext a; apply Fin.ext
      match a with
      | ⟨0, _⟩ => show (y 0).val = 0 + 1 * (y 0).val; omega
      | ⟨1, _⟩ => show (y 1).val = 0 + 1 * (y 1).val; omega
      | ⟨2, _⟩ => show (y 2).val = 2047 + 1 * 0; omega
      | ⟨3, _⟩ => show (y 3).val = 0 + 1 * (y 3).val; omega
    have key := View.canon_cons_emb (Val := Val) (Rect.unit (s := SSlab) ![0, 0, 2047, 0] SRow.size inbRow) r
      [(⟨Rect.unit ![0, 0, 0, 0] SSlab.size inbAll, w⟩ : View.Piece Val SSlab e)] (ix4 (y 0) (y 1) (0 : Fin 1) (y 3))
    rw [← hy] at key
    exact key

/-- SLABS OF A SHIFTED CACHE. If `x` is slab (b, h) of the cache `X` and `tok` is row (b, h) of the token `T`,
    then the shifted slab is slab (b, h) of the shifted cache: shifting acts along the positions only,
    one (batch, head) pair at a time. -/
theorem slabShifted_of_blocks {α : Type} (X : SCache.Idx → α) (T : STok.Idx → α) (b : Fin 4) (hd : Fin 32)
    (x : SSlab.Idx → α) (tok : SRow.Idx → α)
    (hx : ∀ y : SSlab.Idx, x y = X (ix4 b hd (y 2) (y 3)))
    (htok : ∀ z : SRow.Idx, tok z = T (ix4 b hd (z 2) (z 3)))
    (y : SSlab.Idx) :
    slabShifted x tok y = shifted X T (ix4 b hd (y 2) (y 3)) := by
  by_cases h : (y 2).val + 1 < 2048
  · rw [show slabShifted x tok y = x (ix4 (y 0) (y 1) (⟨(y 2).val + 1, h⟩ : Fin 2048) (y 3)) from dif_pos h, hx,
      shifted_of_lt X T (ix4 b hd (y 2) (y 3)) h]
  · rw [show slabShifted x tok y = tok (ix4 (y 0) (y 1) (0 : Fin 1) (y 3)) from dif_neg h, htok,
      shifted_of_last X T (ix4 b hd (y 2) (y 3)) h]

end Cert.Shift

end
-- ==== Proof.ShiftBody.lean ====
/-
  What the kernel's body leaves in each output's staging buffer, for any contents of its input buffers.

  The body treats its three (cache, token) pairs alike. For each it loads the cache slab whole, rotates
  it by 2047 positions, stores the result over the whole output slab, then loads the token row and
  stores it over position 2047 of the same output slab. The generated run of the body names the two
  stores of each output as pieces, the later one first; read back (the later store wins on position
  2047, the earlier one shows elsewhere) each output slab is the shifted slab of its own pair:

      output 6 = slabShifted (input 0) (input 3),
      output 7 = slabShifted (input 1) (input 4),
      output 8 = slabShifted (input 2) (input 5).

  The token of the second pair travels through a one-row matrix between two parts of the body; that
  round trip is the identity on the row. No float operation takes part, so the statements hold at
  every float instance.
-/
import proofs.«157925_j86268713108247_1_alg».proof.Proof.Gen.KernelIdeal.Frame
import proofs.«157925_j86268713108247_1_alg».proof.Proof.ShiftSlab

set_option maxRecDepth 16384

noncomputable section

namespace Cert.Shift.Body

open Cert.KernelIdeal Cert.KernelIdeal.Gen Idealize.ShloMosaic Idealize.ShloMosaic.TcCoe
open Idealize.ShloMosaic.Tactic Idealize.SL.Sem Cert.Shift

variable {F : FTy → Type} [FloatOps F]

/-- The all-zero offsets, however they are spelt. -/
theorem hz4 : (![0, 0, 0, 0] : Fin 4 → Nat) = fun _ => 0 := funext fun a => by fin_cases a <;> rfl

/-- Output window 6's staging buffer after the body: the whole-slab store of input 0's slab rotated, under the
    later one-row store of input 3's row, read back — the shifted slab of that pair. -/
theorem out6_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x1x128 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole)
    (x0 : Vec F S1x1x2048x128 .f32) (x1 : Vec F S1x1x2048x128 .f32) (x2 : Vec F S1x1x2048x128 .f32) (x3 : Vec F S1x1x1x128 .f32) (x4 : Vec F S1x1x1x128 .f32) (x5 : Vec F S1x1x1x128 .f32) :
    out0_A_6 c i arg2 harg2 arg3 harg3 arg4 harg4 arg5 harg5 arg6 harg6 arg7 harg7 arg8 harg8 arg9 harg9 arg10 harg10 x0 x1 x2 x3 x4 x5 = slabShifted x0 x3 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  simp only [View.readAt_eq_ld, harg2.read_unread, harg5.read_unread,
    View.ld_unit_zero (S := S1x1x2048x128) hz4, View.ld_unit_zero (S := S1x1x1x128) hz4]
  funext y
  rw [canon_row_over_slab]
  unfold slabShifted
  by_cases h : (y 2).val + 1 < 2048
  · rw [if_pos h, dif_pos h]
    unfold k0_pay4
    exact rotated_apply_of_lt x0 _ _ _ y h
  · rw [if_neg h, dif_neg h]
    unfold k0_pay5
    rw [row_there_and_back]

/-- Output window 7's staging buffer after the body: the whole-slab store of input 1's slab rotated, under the
    later one-row store of input 4's row, read back — the shifted slab of that pair. -/
theorem out7_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x1x128 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole)
    (x0 : Vec F S1x1x2048x128 .f32) (x1 : Vec F S1x1x2048x128 .f32) (x2 : Vec F S1x1x2048x128 .f32) (x3 : Vec F S1x1x1x128 .f32) (x4 : Vec F S1x1x1x128 .f32) (x5 : Vec F S1x1x1x128 .f32) :
    out0_A_7 c i arg2 harg2 arg3 harg3 arg4 harg4 arg5 harg5 arg6 harg6 arg7 harg7 arg8 harg8 arg9 harg9 arg10 harg10 x0 x1 x2 x3 x4 x5 = slabShifted x1 x4 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  simp only [View.readAt_eq_ld, harg3.read_unread, harg6.read_unread,
    View.ld_unit_zero (S := S1x1x2048x128) hz4, View.ld_unit_zero (S := S1x1x1x128) hz4]
  funext y
  rw [canon_row_over_slab]
  unfold slabShifted
  by_cases h : (y 2).val + 1 < 2048
  · rw [if_pos h, dif_pos h]
    unfold k0_pay6
    exact rotated_apply_of_lt x1 _ _ _ y h
  · rw [if_neg h, dif_neg h]
    unfold k0_pay1 k0_pay7
    rw [row_there_and_back]

/-- Output window 8's staging buffer after the body: the whole-slab store of input 2's slab rotated, under the
    later one-row store of input 5's row, read back — the shifted slab of that pair. -/
theorem out8_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x1x128 .f32) (harg5 : arg5.IsWhole) (arg6 : Memref sig .tc .vmem S1x1x1x128 .f32) (harg6 : arg6.IsWhole) (arg7 : Memref sig .tc .vmem S1x1x1x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole)
    (x0 : Vec F S1x1x2048x128 .f32) (x1 : Vec F S1x1x2048x128 .f32) (x2 : Vec F S1x1x2048x128 .f32) (x3 : Vec F S1x1x1x128 .f32) (x4 : Vec F S1x1x1x128 .f32) (x5 : Vec F S1x1x1x128 .f32) :
    out0_A_8 c i arg2 harg2 arg3 harg3 arg4 harg4 arg5 harg5 arg6 harg6 arg7 harg7 arg8 harg8 arg9 harg9 arg10 harg10 x0 x1 x2 x3 x4 x5 = slabShifted x2 x5 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5)]
  unfold kernelRun0_A
  dsimp only
  sl_unfold_words
  simp only [View.readAt_eq_ld, harg4.read_unread, harg7.read_unread,
    View.ld_unit_zero (S := S1x1x2048x128) hz4, View.ld_unit_zero (S := S1x1x1x128) hz4]
  funext y
  rw [canon_row_over_slab]
  unfold slabShifted
  by_cases h : (y 2).val + 1 < 2048
  · rw [if_pos h, dif_pos h]
    unfold k0_pay2
    exact rotated_apply_of_lt x2 _ _ _ y h
  · rw [if_neg h, dif_neg h]
    unfold k0_pay3
    rw [row_there_and_back]

end Cert.Shift.Body

end
-- ==== Proof.ShiftBlocks.lean ====
/-
  From the blocks the grid points write back to the three result arrays.

  The grid has one point per (batch, head) pair, 4 · 32 = 128 of them. Every window of the call — the three
  caches, the three tokens, the three results — has the same index map: at the point of pair (b, h) its block
  is block (b, h, 0, 0), that is, slab (b, h) of a cache-shaped array and row (b, h) of a token-shaped one.
  Three facts then give each result array whole:

    * what a point writes back is the shifted slab of its two input blocks (the body, for any buffer contents);
    * the shifted slab of slab (b, h) is slab (b, h) of the shifted cache (shifting acts along positions only);
    * the 128 slabs tile the array: index (b, h, s, d) lies in the block of the point of pair (b, h).

  So each result array ends as the shifted cache of its own (cache, token) pair of argument arrays, at any
  float instance, and the run of the program can be re-stated with the three results named.
-/
import proofs.«157925_j86268713108247_1_alg».proof.Proof.Gen.KernelIdeal.Value
import proofs.«157925_j86268713108247_1_alg».proof.Proof.ShiftBody

set_option maxRecDepth 16384

noncomputable section

namespace Cert.Shift.Blocks

open Cert.KernelIdeal Cert.KernelIdeal.Gen Idealize.ShloMosaic Idealize.ShloMosaic.TcCoe Idealize.SL.Sem
open Idealize.ShloMosaic.ValueIdx Cert.Shift
open Idealize.ShloMosaic.Pipeline (Dat)

variable {F : FTy → Type} [FloatOps F]
variable (m : (ℓ : Loc nD τ sig) → Buf (Elt F) ℓ) (ρ : Dev nD → PrngReg)

/-! ## Output window 6: its array ends as the shifted cache of inputs 0 and 3 -/

/-- The index maps, decided over the 128 grid points: output window 6, the cache window 0 and the token window 3
    all name block (batch, head, 0, 0) at every point, with the batch below 4 and the head below 32. -/
theorem idx_facts6 : ∀ t : Fin cfg0.N,
    win0_6.index t (0 : Fin 4) < 4 ∧ win0_6.index t (1 : Fin 4) < 32
    ∧ win0_6.index t (2 : Fin 4) = 0 ∧ win0_6.index t (3 : Fin 4) = 0
    ∧ win0_0.index t (0 : Fin 4) = win0_6.index t (0 : Fin 4) ∧ win0_0.index t (1 : Fin 4) = win0_6.index t (1 : Fin 4)
    ∧ win0_0.index t (2 : Fin 4) = 0 ∧ win0_0.index t (3 : Fin 4) = 0
    ∧ win0_3.index t (0 : Fin 4) = win0_6.index t (0 : Fin 4) ∧ win0_3.index t (1 : Fin 4) = win0_6.index t (1 : Fin 4)
    ∧ win0_3.index t (2 : Fin 4) = 0 ∧ win0_3.index t (3 : Fin 4) = 0 :=
  (by decide +kernel : ∀ t : Fin grid0.N, _)

/-- Every (batch, head) pair is some grid point's block. -/
theorem idx_onto6 : ∀ (q0 : Fin 4) (q1 : Fin 32), ∃ t : Fin cfg0.N, win0_6.index t = ![q0.val, q1.val, 0, 0] :=
  (by decide +kernel : ∀ (q0 : Fin 4) (q1 : Fin 32), ∃ t : Fin grid0.N, win0_6.index t = ![q0.val, q1.val, 0, 0])

/-- WHAT POINT `t` WRITES BACK through output window 6 is block `t` of the shifted cache of the argument arrays:
    the body leaves the shifted slab of the point's input blocks, those blocks are slab and row (batch, head) of the
    arguments, and the shifted slab of slab (batch, head) is slab (batch, head) of the shifted cache. -/
theorem flushed6_eq (c : Dev nD) (t : Fin cfg0.N) :
    (dats m 0 c).flushed 6 t
      = ((cfg0.win 6).blk t).view.read (Elt F) (shifted (V m c main_arg0) (V m c main_arg3)) := by
  rw [Value.flushed6_A, Body.out6_eq]
  obtain ⟨b4, b32, o2, o3, c0, c1, c2, c3, k0, k1, k2, k3⟩ := idx_facts6 t
  funext y
  show slabShifted (iblk m c 0 t) (iblk m c 3 t) y
    = shifted (V m c main_arg0) (V m c main_arg3) (((cfg0.win 6).blk t).view.emb y)
  have hy0 : (y 0).val = 0 := by have h0 := (y 0).isLt; change (y 0).val < 1 at h0; omega
  have hy1 : (y 1).val = 0 := by have h0 := (y 1).isLt; change (y 1).val < 1 at h0; omega
  have hemb : ((cfg0.win 6).blk t).view.emb y
      = ix4 (⟨win0_6.index t (0 : Fin 4), b4⟩ : Fin 4) (⟨win0_6.index t (1 : Fin 4), b32⟩ : Fin 32) (y 2) (y 3) := by
    funext a; apply Fin.ext
    match a with
    | ⟨0, _⟩ => show win0_6.index t (0 : Fin 4) * 1 + 1 * (y 0).val = win0_6.index t (0 : Fin 4); omega
    | ⟨1, _⟩ => show win0_6.index t (1 : Fin 4) * 1 + 1 * (y 1).val = win0_6.index t (1 : Fin 4); omega
    | ⟨2, _⟩ => show win0_6.index t (2 : Fin 4) * 2048 + 1 * (y 2).val = (y 2).val; omega
    | ⟨3, _⟩ => show win0_6.index t (3 : Fin 4) * 128 + 1 * (y 3).val = (y 3).val; omega
  rw [hemb]
  refine slabShifted_of_blocks (V m c main_arg0) (V m c main_arg3) _ _ (iblk m c 0 t) (iblk m c 3 t) ?_ ?_ y
  · -- the cache window's block at the point is slab (batch, head) of its array
    intro y'
    show V m c main_arg0 (((cfg0.win 0).blk t).view.emb y') = V m c main_arg0 (ix4 _ _ (y' 2) (y' 3))
    refine congrArg (V m c main_arg0) ?_
    have hy0' : (y' 0).val = 0 := by have h0 := (y' 0).isLt; change (y' 0).val < 1 at h0; omega
    have hy1' : (y' 1).val = 0 := by have h0 := (y' 1).isLt; change (y' 1).val < 1 at h0; omega
    funext a; apply Fin.ext
    match a with
    | ⟨0, _⟩ => show win0_0.index t (0 : Fin 4) * 1 + 1 * (y' 0).val = win0_6.index t (0 : Fin 4); omega
    | ⟨1, _⟩ => show win0_0.index t (1 : Fin 4) * 1 + 1 * (y' 1).val = win0_6.index t (1 : Fin 4); omega
    | ⟨2, _⟩ => show win0_0.index t (2 : Fin 4) * 2048 + 1 * (y' 2).val = (y' 2).val; omega
    | ⟨3, _⟩ => show win0_0.index t (3 : Fin 4) * 128 + 1 * (y' 3).val = (y' 3).val; omega
  · -- the token window's block at the point is row (batch, head) of its array
    intro z
    show V m c main_arg3 (((cfg0.win 3).blk t).view.emb z) = V m c main_arg3 (ix4 _ _ (z 2) (z 3))
    refine congrArg (V m c main_arg3) ?_
    have hz0 : (z 0).val = 0 := by have h0 := (z 0).isLt; change (z 0).val < 1 at h0; omega
    have hz1 : (z 1).val = 0 := by have h0 := (z 1).isLt; change (z 1).val < 1 at h0; omega
    funext a; apply Fin.ext
    match a with
    | ⟨0, _⟩ => show win0_3.index t (0 : Fin 4) * 1 + 1 * (z 0).val = win0_6.index t (0 : Fin 4); omega
    | ⟨1, _⟩ => show win0_3.index t (1 : Fin 4) * 1 + 1 * (z 1).val = win0_6.index t (1 : Fin 4); omega
    | ⟨2, _⟩ => show win0_3.index t (2 : Fin 4) * 1 + 1 * (z 2).val = (z 2).val; omega
    | ⟨3, _⟩ => show win0_3.index t (3 : Fin 4) * 128 + 1 * (z 3).val = (z 3).val; omega

/-- An index of the array is in point `t`'s block iff each coordinate is in the block's range on its axis. -/
theorem mem_blk6 (t : Fin cfg0.N) (i : S4x32x2048x128.Idx) :
    i ∈ ((cfg0.win 6).blk t).view.set ↔ ∀ a : Fin 4, win0_6.index t a * S1x1x2048x128.size a ≤ (i a).val
      ∧ (i a).val < win0_6.index t a * S1x1x2048x128.size a + S1x1x2048x128.size a := by
  show i ∈ ((View.whole main_v0_0).slice (win0_6.rect t)).set ↔ _
  rw [View.set_slice_whole, Rect.mem_set_unit]
  exact Iff.rfl

/-- THE BLOCKS COVER THE ARRAY: index (b, h, s, d) lies in the block of the point whose (batch, head) is (b, h). -/
theorem cover6 (i : S4x32x2048x128.Idx) :
    ∃ t : Fin cfg0.N, (cfg0.win 6).flush t = true ∧ i ∈ ((cfg0.win 6).blk t).view.set := by
  obtain ⟨t, ht⟩ := idx_onto6 (i 0) (i 1)
  have q0 : win0_6.index t (0 : Fin 4) = (i 0).val := congrFun ht 0
  have q1 : win0_6.index t (1 : Fin 4) = (i 1).val := congrFun ht 1
  have q2 : win0_6.index t (2 : Fin 4) = 0 := congrFun ht 2
  have q3 : win0_6.index t (3 : Fin 4) = 0 := congrFun ht 3
  have hi2 : (i 2).val < 2048 := (i 2).isLt
  have hi3 : (i 3).val < 128 := (i 3).isLt
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 2048 ≤ (i 2).val ∧ (i 2).val < win0_6.index t (2 : Fin 4) * 2048 + 2048; omega
  | ⟨3, _⟩ => show win0_6.index t (3 : Fin 4) * 128 ≤ (i 3).val ∧ (i 3).val < win0_6.index t (3 : Fin 4) * 128 + 128; omega

/-- THE ARRAY after the run: the shifted cache of the argument arrays, everywhere. -/
theorem final6 (c : Dev nD) :
    (dats m 0 c).arrAt 6 cfg0.N
      = shifted (m ((c : Thread nD τ).loc main_arg0)) (m ((c : Thread nD τ).loc main_arg3)) :=
  (dats m 0 c).arrAt_eq_of_cover 6 (shifted (V m c main_arg0) (V m c main_arg3))
    (fun t _ => flushed6_eq m c t) cover6

/-! ## Output window 7: its array ends as the shifted cache of inputs 1 and 4 -/

/-- The index maps, decided over the 128 grid points: output window 7, the cache window 1 and the token window 4
    all name block (batch, head, 0, 0) at every point, with the batch below 4 and the head below 32. -/
theorem idx_facts7 : ∀ t : Fin cfg0.N,
    win0_7.index t (0 : Fin 4) < 4 ∧ win0_7.index t (1 : Fin 4) < 32
    ∧ win0_7.index t (2 : Fin 4) = 0 ∧ win0_7.index t (3 : Fin 4) = 0
    ∧ win0_1.index t (0 : Fin 4) = win0_7.index t (0 : Fin 4) ∧ win0_1.index t (1 : Fin 4) = win0_7.index t (1 : Fin 4)
    ∧ win0_1.index t (2 : Fin 4) = 0 ∧ win0_1.index t (3 : Fin 4) = 0
    ∧ win0_4.index t (0 : Fin 4) = win0_7.index t (0 : Fin 4) ∧ win0_4.index t (1 : Fin 4) = win0_7.index t (1 : Fin 4)
    ∧ win0_4.index t (2 : Fin 4) = 0 ∧ win0_4.index t (3 : Fin 4) = 0 :=
  (by decide +kernel : ∀ t : Fin grid0.N, _)

/-- Every (batch, head) pair is some grid point's block. -/
theorem idx_onto7 : ∀ (q0 : Fin 4) (q1 : Fin 32), ∃ t : Fin cfg0.N, win0_7.index t = ![q0.val, q1.val, 0, 0] :=
  (by decide +kernel : ∀ (q0 : Fin 4) (q1 : Fin 32), ∃ t : Fin grid0.N, win0_7.index t = ![q0.val, q1.val, 0, 0])

/-- WHAT POINT `t` WRITES BACK through output window 7 is block `t` of the shifted cache of the argument arrays:
    the body leaves the shifted slab of the point's input blocks, those blocks are slab and row (batch, head) of the
    arguments, and the shifted slab of slab (batch, head) is slab (batch, head) of the shifted cache. -/
theorem flushed7_eq (c : Dev nD) (t : Fin cfg0.N) :
    (dats m 0 c).flushed 7 t
      = ((cfg0.win 7).blk t).view.read (Elt F) (shifted (V m c main_arg1) (V m c main_arg4)) := by
  rw [Value.flushed7_A, Body.out7_eq]
  obtain ⟨b4, b32, o2, o3, c0, c1, c2, c3, k0, k1, k2, k3⟩ := idx_facts7 t
  funext y
  show slabShifted (iblk m c 1 t) (iblk m c 4 t) y
    = shifted (V m c main_arg1) (V m c main_arg4) (((cfg0.win 7).blk t).view.emb y)
  have hy0 : (y 0).val = 0 := by have h0 := (y 0).isLt; change (y 0).val < 1 at h0; omega
  have hy1 : (y 1).val = 0 := by have h0 := (y 1).isLt; change (y 1).val < 1 at h0; omega
  have hemb : ((cfg0.win 7).blk t).view.emb y
      = ix4 (⟨win0_7.index t (0 : Fin 4), b4⟩ : Fin 4) (⟨win0_7.index t (1 : Fin 4), b32⟩ : Fin 32) (y 2) (y 3) := by
    funext a; apply Fin.ext
    match a with
    | ⟨0, _⟩ => show win0_7.index t (0 : Fin 4) * 1 + 1 * (y 0).val = win0_7.index t (0 : Fin 4); omega
    | ⟨1, _⟩ => show win0_7.index t (1 : Fin 4) * 1 + 1 * (y 1).val = win0_7.index t (1 : Fin 4); omega
    | ⟨2, _⟩ => show win0_7.index t (2 : Fin 4) * 2048 + 1 * (y 2).val = (y 2).val; omega
    | ⟨3, _⟩ => show win0_7.index t (3 : Fin 4) * 128 + 1 * (y 3).val = (y 3).val; omega
  rw [hemb]
  refine slabShifted_of_blocks (V m c main_arg1) (V m c main_arg4) _ _ (iblk m c 1 t) (iblk m c 4 t) ?_ ?_ y
  · -- the cache window's block at the point is slab (batch, head) of its array
    intro y'
    show V m c main_arg1 (((cfg0.win 1).blk t).view.emb y') = V m c main_arg1 (ix4 _ _ (y' 2) (y' 3))
    refine congrArg (V m c main_arg1) ?_
    have hy0' : (y' 0).val = 0 := by have h0 := (y' 0).isLt; change (y' 0).val < 1 at h0; omega
    have hy1' : (y' 1).val = 0 := by have h0 := (y' 1).isLt; change (y' 1).val < 1 at h0; omega
    funext a; apply Fin.ext
    match a with
    | ⟨0, _⟩ => show win0_1.index t (0 : Fin 4) * 1 + 1 * (y' 0).val = win0_7.index t (0 : Fin 4); omega
    | ⟨1, _⟩ => show win0_1.index t (1 : Fin 4) * 1 + 1 * (y' 1).val = win0_7.index t (1 : Fin 4); omega
    | ⟨2, _⟩ => show win0_1.index t (2 : Fin 4) * 2048 + 1 * (y' 2).val = (y' 2).val; omega
    | ⟨3, _⟩ => show win0_1.index t (3 : Fin 4) * 128 + 1 * (y' 3).val = (y' 3).val; omega
  · -- the token window's block at the point is row (batch, head) of its array
    intro z
    show V m c main_arg4 (((cfg0.win 4).blk t).view.emb z) = V m c main_arg4 (ix4 _ _ (z 2) (z 3))
    refine congrArg (V m c main_arg4) ?_
    have hz0 : (z 0).val = 0 := by have h0 := (z 0).isLt; change (z 0).val < 1 at h0; omega
    have hz1 : (z 1).val = 0 := by have h0 := (z 1).isLt; change (z 1).val < 1 at h0; omega
    funext a; apply Fin.ext
    match a with
    | ⟨0, _⟩ => show win0_4.index t (0 : Fin 4) * 1 + 1 * (z 0).val = win0_7.index t (0 : Fin 4); omega
    | ⟨1, _⟩ => show win0_4.index t (1 : Fin 4) * 1 + 1 * (z 1).val = win0_7.index t (1 : Fin 4); omega
    | ⟨2, _⟩ => show win0_4.index t (2 : Fin 4) * 1 + 1 * (z 2).val = (z 2).val; omega
    | ⟨3, _⟩ => show win0_4.index t (3 : Fin 4) * 128 + 1 * (z 3).val = (z 3).val; omega

/-- An index of the array is in point `t`'s block iff each coordinate is in the block's range on its axis. -/
theorem mem_blk7 (t : Fin cfg0.N) (i : S4x32x2048x128.Idx) :
    i ∈ ((cfg0.win 7).blk t).view.set ↔ ∀ a : Fin 4, win0_7.index t a * S1x1x2048x128.size a ≤ (i a).val
      ∧ (i a).val < win0_7.index t a * S1x1x2048x128.size a + S1x1x2048x128.size a := by
  show i ∈ ((View.whole main_v0_1).slice (win0_7.rect t)).set ↔ _
  rw [View.set_slice_whole, Rect.mem_set_unit]
  exact Iff.rfl

/-- THE BLOCKS COVER THE ARRAY: index (b, h, s, d) lies in the block of the point whose (batch, head) is (b, h). -/
theorem cover7 (i : S4x32x2048x128.Idx) :
    ∃ t : Fin cfg0.N, (cfg0.win 7).flush t = true ∧ i ∈ ((cfg0.win 7).blk t).view.set := by
  obtain ⟨t, ht⟩ := idx_onto7 (i 0) (i 1)
  have q0 : win0_7.index t (0 : Fin 4) = (i 0).val := congrFun ht 0
  have q1 : win0_7.index t (1 : Fin 4) = (i 1).val := congrFun ht 1
  have q2 : win0_7.index t (2 : Fin 4) = 0 := congrFun ht 2
  have q3 : win0_7.index t (3 : Fin 4) = 0 := congrFun ht 3
  have hi2 : (i 2).val < 2048 := (i 2).isLt
  have hi3 : (i 3).val < 128 := (i 3).isLt
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 2048 ≤ (i 2).val ∧ (i 2).val < win0_7.index t (2 : Fin 4) * 2048 + 2048; omega
  | ⟨3, _⟩ => show win0_7.index t (3 : Fin 4) * 128 ≤ (i 3).val ∧ (i 3).val < win0_7.index t (3 : Fin 4) * 128 + 128; omega

/-- THE ARRAY after the run: the shifted cache of the argument arrays, everywhere. -/
theorem final7 (c : Dev nD) :
    (dats m 0 c).arrAt 7 cfg0.N
      = shifted (m ((c : Thread nD τ).loc main_arg1)) (m ((c : Thread nD τ).loc main_arg4)) :=
  (dats m 0 c).arrAt_eq_of_cover 7 (shifted (V m c main_arg1) (V m c main_arg4))
    (fun t _ => flushed7_eq m c t) cover7

/-! ## Output window 8: its array ends as the shifted cache of inputs 2 and 5 -/

/-- The index maps, decided over the 128 grid points: output window 8, the cache window 2 and the token window 5
    all name block (batch, head, 0, 0) at every point, with the batch below 4 and the head below 32. -/
theorem idx_facts8 : ∀ t : Fin cfg0.N,
    win0_8.index t (0 : Fin 4) < 4 ∧ win0_8.index t (1 : Fin 4) < 32
    ∧ win0_8.index t (2 : Fin 4) = 0 ∧ win0_8.index t (3 : Fin 4) = 0
    ∧ win0_2.index t (0 : Fin 4) = win0_8.index t (0 : Fin 4) ∧ win0_2.index t (1 : Fin 4) = win0_8.index t (1 : Fin 4)
    ∧ win0_2.index t (2 : Fin 4) = 0 ∧ win0_2.index t (3 : Fin 4) = 0
    ∧ win0_5.index t (0 : Fin 4) = win0_8.index t (0 : Fin 4) ∧ win0_5.index t (1 : Fin 4) = win0_8.index t (1 : Fin 4)
    ∧ win0_5.index t (2 : Fin 4) = 0 ∧ win0_5.index t (3 : Fin 4) = 0 :=
  (by decide +kernel : ∀ t : Fin grid0.N, _)

/-- Every (batch, head) pair is some grid point's block. -/
theorem idx_onto8 : ∀ (q0 : Fin 4) (q1 : Fin 32), ∃ t : Fin cfg0.N, win0_8.index t = ![q0.val, q1.val, 0, 0] :=
  (by decide +kernel : ∀ (q0 : Fin 4) (q1 : Fin 32), ∃ t : Fin grid0.N, win0_8.index t = ![q0.val, q1.val, 0, 0])

/-- WHAT POINT `t` WRITES BACK through output window 8 is block `t` of the shifted cache of the argument arrays:
    the body leaves the shifted slab of the point's input blocks, those blocks are slab and row (batch, head) of the
    arguments, and the shifted slab of slab (batch, head) is slab (batch, head) of the shifted cache. -/
theorem flushed8_eq (c : Dev nD) (t : Fin cfg0.N) :
    (dats m 0 c).flushed 8 t
      = ((cfg0.win 8).blk t).view.read (Elt F) (shifted (V m c main_arg2) (V m c main_arg5)) := by
  rw [Value.flushed8_A, Body.out8_eq]
  obtain ⟨b4, b32, o2, o3, c0, c1, c2, c3, k0, k1, k2, k3⟩ := idx_facts8 t
  funext y
  show slabShifted (iblk m c 2 t) (iblk m c 5 t) y
    = shifted (V m c main_arg2) (V m c main_arg5) (((cfg0.win 8).blk t).view.emb y)
  have hy0 : (y 0).val = 0 := by have h0 := (y 0).isLt; change (y 0).val < 1 at h0; omega
  have hy1 : (y 1).val = 0 := by have h0 := (y 1).isLt; change (y 1).val < 1 at h0; omega
  have hemb : ((cfg0.win 8).blk t).view.emb y
      = ix4 (⟨win0_8.index t (0 : Fin 4), b4⟩ : Fin 4) (⟨win0_8.index t (1 : Fin 4), b32⟩ : Fin 32) (y 2) (y 3) := by
    funext a; apply Fin.ext
    match a with
    | ⟨0, _⟩ => show win0_8.index t (0 : Fin 4) * 1 + 1 * (y 0).val = win0_8.index t (0 : Fin 4); omega
    | ⟨1, _⟩ => show win0_8.index t (1 : Fin 4) * 1 + 1 * (y 1).val = win0_8.index t (1 : Fin 4); omega
    | ⟨2, _⟩ => show win0_8.index t (2 : Fin 4) * 2048 + 1 * (y 2).val = (y 2).val; omega
    | ⟨3, _⟩ => show win0_8.index t (3 : Fin 4) * 128 + 1 * (y 3).val = (y 3).val; omega
  rw [hemb]
  refine slabShifted_of_blocks (V m c main_arg2) (V m c main_arg5) _ _ (iblk m c 2 t) (iblk m c 5 t) ?_ ?_ y
  · -- the cache window's block at the point is slab (batch, head) of its array
    intro y'
    show V m c main_arg2 (((cfg0.win 2).blk t).view.emb y') = V m c main_arg2 (ix4 _ _ (y' 2) (y' 3))
    refine congrArg (V m c main_arg2) ?_
    have hy0' : (y' 0).val = 0 := by have h0 := (y' 0).isLt; change (y' 0).val < 1 at h0; omega
    have hy1' : (y' 1).val = 0 := by have h0 := (y' 1).isLt; change (y' 1).val < 1 at h0; omega
    funext a; apply Fin.ext
    match a with
    | ⟨0, _⟩ => show win0_2.index t (0 : Fin 4) * 1 + 1 * (y' 0).val = win0_8.index t (0 : Fin 4); omega
    | ⟨1, _⟩ => show win0_2.index t (1 : Fin 4) * 1 + 1 * (y' 1).val = win0_8.index t (1 : Fin 4); omega
    | ⟨2, _⟩ => show win0_2.index t (2 : Fin 4) * 2048 + 1 * (y' 2).val = (y' 2).val; omega
    | ⟨3, _⟩ => show win0_2.index t (3 : Fin 4) * 128 + 1 * (y' 3).val = (y' 3).val; omega
  · -- the token window's block at the point is row (batch, head) of its array
    intro z
    show V m c main_arg5 (((cfg0.win 5).blk t).view.emb z) = V m c main_arg5 (ix4 _ _ (z 2) (z 3))
    refine congrArg (V m c main_arg5) ?_
    have hz0 : (z 0).val = 0 := by have h0 := (z 0).isLt; change (z 0).val < 1 at h0; omega
    have hz1 : (z 1).val = 0 := by have h0 := (z 1).isLt; change (z 1).val < 1 at h0; omega
    funext a; apply Fin.ext
    match a with
    | ⟨0, _⟩ => show win0_5.index t (0 : Fin 4) * 1 + 1 * (z 0).val = win0_8.index t (0 : Fin 4); omega
    | ⟨1, _⟩ => show win0_5.index t (1 : Fin 4) * 1 + 1 * (z 1).val = win0_8.index t (1 : Fin 4); omega
    | ⟨2, _⟩ => show win0_5.index t (2 : Fin 4) * 1 + 1 * (z 2).val = (z 2).val; omega
    | ⟨3, _⟩ => show win0_5.index t (3 : Fin 4) * 128 + 1 * (z 3).val = (z 3).val; omega

/-- An index of the array is in point `t`'s block iff each coordinate is in the block's range on its axis. -/
theorem mem_blk8 (t : Fin cfg0.N) (i : S4x32x2048x128.Idx) :
    i ∈ ((cfg0.win 8).blk t).view.set ↔ ∀ a : Fin 4, win0_8.index t a * S1x1x2048x128.size a ≤ (i a).val
      ∧ (i a).val < win0_8.index t a * S1x1x2048x128.size a + S1x1x2048x128.size a := by
  show i ∈ ((View.whole main_v0_2).slice (win0_8.rect t)).set ↔ _
  rw [View.set_slice_whole, Rect.mem_set_unit]
  exact Iff.rfl

/-- THE BLOCKS COVER THE ARRAY: index (b, h, s, d) lies in the block of the point whose (batch, head) is (b, h). -/
theorem cover8 (i : S4x32x2048x128.Idx) :
    ∃ t : Fin cfg0.N, (cfg0.win 8).flush t = true ∧ i ∈ ((cfg0.win 8).blk t).view.set := by
  obtain ⟨t, ht⟩ := idx_onto8 (i 0) (i 1)
  have q0 : win0_8.index t (0 : Fin 4) = (i 0).val := congrFun ht 0
  have q1 : win0_8.index t (1 : Fin 4) = (i 1).val := congrFun ht 1
  have q2 : win0_8.index t (2 : Fin 4) = 0 := congrFun ht 2
  have q3 : win0_8.index t (3 : Fin 4) = 0 := congrFun ht 3
  have hi2 : (i 2).val < 2048 := (i 2).isLt
  have hi3 : (i 3).val < 128 := (i 3).isLt
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 2048 ≤ (i 2).val ∧ (i 2).val < win0_8.index t (2 : Fin 4) * 2048 + 2048; omega
  | ⟨3, _⟩ => show win0_8.index t (3 : Fin 4) * 128 ≤ (i 3).val ∧ (i 3).val < win0_8.index t (3 : Fin 4) * 128 + 128; omega

/-- THE ARRAY after the run: the shifted cache of the argument arrays, everywhere. -/
theorem final8 (c : Dev nD) :
    (dats m 0 c).arrAt 8 cfg0.N
      = shifted (m ((c : Thread nD τ).loc main_arg2)) (m ((c : Thread nD τ).loc main_arg5)) :=
  (dats m 0 c).arrAt_eq_of_cover 8 (shifted (V m c main_arg2) (V m c main_arg5))
    (fun t _ => flushed8_eq m c t) cover8

/-! ## The run, with the three results named -/

/-- Every weakly fair execution of the kernel's program terminates with each result array at the shifted cache of
    its (cache, token) pair of argument arrays, and the argument arrays unchanged. -/
theorem run : θ_run defs (onTc (τ := τ) (main (F := F))) ⟨m, fun _ => 0, ρ⟩ fun r => ∀ c : Dev nD,
      r.2.mem ((c : Thread nD τ).loc main_v0_0)
        = shifted (m ((c : Thread nD τ).loc main_arg0)) (m ((c : Thread nD τ).loc main_arg3))
      ∧ r.2.mem ((c : Thread nD τ).loc main_v0_1)
        = shifted (m ((c : Thread nD τ).loc main_arg1)) (m ((c : Thread nD τ).loc main_arg4))
      ∧ r.2.mem ((c : Thread nD τ).loc main_v0_2)
        = shifted (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2⟩)
    (Cert.KernelIdeal.Value.run_blocks m ρ)

end Cert.Shift.Blocks

end
-- ==== Proof.lean ====
/-
  A one-step cache shift: the kernel's three results equal the reference's, entry by entry.

  The program takes three caches over [4, 32, 2048, 128] (batch, head, position, feature) and three new tokens
  over [4, 32, 1, 128], and returns for each (cache, token) pair the cache with position 0 forgotten, every
  later position moved one step to the front, and the token in the last position:

      result (b, h, s, d) = cache (b, h, s + 1, d)   for s < 2047,      result (b, h, 2047, d) = token (b, h, 0, d).

  THE REFERENCE slices positions 1 … 2047 out of the cache and concatenates the token behind them.
  THE KERNEL visits one (batch, head) slab per grid point; it rotates the slab by 2047 along the positions, which
  brings position s + 1 to position s (and position 0 round to 2047), stores it, and overwrites position 2047
  with the token. Both are the function above: at s < 2047 the rotation by 2047 ≡ −1 (mod 2048) reads s + 1, and
  the wrapped-around last position is exactly the one the token replaces.

  No float operation takes part — entries are moved, never combined — so the equality holds for arbitrary
  extended reals and the precondition (finite inputs) is not used in the value argument.

  The modules: ShiftSpec (the function above), ShiftRef (slice-then-concatenate is that function), ShiftSlab (one
  slab: the rotation read at an index, the two stores read back, slabs of a shifted cache), ShiftBody (the body
  leaves the shifted slab in each output buffer), ShiftBlocks (the 128 slabs tile each result array; the run
  with its results named). The three frames are the generated ones (the reference's is its generated run with
  the results dropped); the idealization rewrote nothing, so `preserves` is trivially true.
-/
import proofs.«157925_j86268713108247_1_alg».proof.Defs
import proofs.«157925_j86268713108247_1_alg».proof.Proof.Gen.Kernel
import proofs.«157925_j86268713108247_1_alg».proof.Proof.Gen.Kernel.Skeleton
import proofs.«157925_j86268713108247_1_alg».proof.Proof.Gen.Kernel.Launch
import proofs.«157925_j86268713108247_1_alg».proof.Proof.Gen.Kernel.Points
import proofs.«157925_j86268713108247_1_alg».proof.Proof.Gen.Kernel.Frame
import proofs.«157925_j86268713108247_1_alg».proof.Proof.Gen.KernelIdeal
import proofs.«157925_j86268713108247_1_alg».proof.Proof.Gen.KernelIdeal.Skeleton
import proofs.«157925_j86268713108247_1_alg».proof.Proof.Gen.KernelIdeal.Launch
import proofs.«157925_j86268713108247_1_alg».proof.Proof.Gen.KernelIdeal.Points
import proofs.«157925_j86268713108247_1_alg».proof.Proof.Gen.KernelIdeal.Frame
import proofs.«157925_j86268713108247_1_alg».proof.Proof.Gen.ReferenceIdeal
import proofs.«157925_j86268713108247_1_alg».proof.Proof.Gen.Pre_finite_inputs
import proofs.«157925_j86268713108247_1_alg».proof.Proof.Gen.KernelIdeal.Value
import proofs.«157925_j86268713108247_1_alg».proof.Proof.Gen.ReferenceIdeal.Run
import proofs.«157925_j86268713108247_1_alg».proof.Proof.Gen.ReferenceIdeal.Read
import proofs.«157925_j86268713108247_1_alg».proof.Proof.ShiftSpec
import proofs.«157925_j86268713108247_1_alg».proof.Proof.ShiftRef
import proofs.«157925_j86268713108247_1_alg».proof.Proof.ShiftSlab
import proofs.«157925_j86268713108247_1_alg».proof.Proof.ShiftBody
import proofs.«157925_j86268713108247_1_alg».proof.Proof.ShiftBlocks
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says about the three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation: there is nothing to preserve. -/
theorem preserves : Cert.preserves_Kernel_KernelIdeal := trivial

/-- From memories that agree on the six arguments, the kernel's three result arrays end as the shifted caches of
    the three (cache, token) pairs, and the reference's three results — each a slice of the cache with the token
    concatenated behind it — are the same three functions of the same arguments. -/
theorem algebraic : Cert.algebraic_KernelIdeal_ReferenceIdeal := by
  intro m ρ m' ρ' _ hagree
  refine ⟨_, _, _, Cert.Shift.Blocks.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.2.2.1]
    exact Cert.Shift.slice_concat_eq_shifted _ _ _ _
  · rw [(hagree c).2.1, (hagree c).2.2.2.2.1]
    exact Cert.Shift.slice_concat_eq_shifted _ _ _ _
  · rw [(hagree c).2.2.1, (hagree c).2.2.2.2.2]
    exact Cert.Shift.slice_concat_eq_shifted _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
